-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x2048 .f32) (main_arg1 : FVec F S2048x2048 .f32) (main_arg2 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S256x2048 : Shape := ⟨2, ![256, 2048]⟩
abbrev S512x256 : Shape := ⟨2, ![512, 256]⟩
abbrev S1x256 : Shape := ⟨2, ![1, 256]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x2048_S256x2048_0_0 : ∀ a, (![0, 0] : Fin 2 → Nat) a + S256x2048.size a ≤ S2048x2048.size a
  h_S256x2048 : 0 < S256x2048.numel
  inb_S1x2048_S1x256_0_0 : ∀ a, (![0, 0] : Fin 2 → Nat) a + S1x256.size a ≤ S1x2048.size a
  h_S1x256 : 0 < S1x256.numel
  shapeCasts_S1x256_S1x256 : S1x256.ShapeCasts S1x256
  broadcasts_S1x256_S512x256 : S1x256.Broadcasts S512x256
  inb_S512x2048_S512x256_0_0 : ∀ a, (![0, 0] : Fin 2 → Nat) a + S512x256.size a ≤ S512x2048.size a
  h_S512x256 : 0 < S512x256.numel
  inb_S2048x2048_S256x2048_256_0 : ∀ a, (![256, 0] : Fin 2 → Nat) a + S256x2048.size a ≤ S2048x2048.size a
  inb_S1x2048_S1x256_0_256 : ∀ a, (![0, 256] : Fin 2 → Nat) a + S1x256.size a ≤ S1x2048.size a
  inb_S512x2048_S512x256_0_256 : ∀ a, (![0, 256] : Fin 2 → Nat) a + S512x256.size a ≤ S512x2048.size a
  inb_S2048x2048_S256x2048_512_0 : ∀ a, (![512, 0] : Fin 2 → Nat) a + S256x2048.size a ≤ S2048x2048.size a
  inb_S1x2048_S1x256_0_512 : ∀ a, (![0, 512] : Fin 2 → Nat) a + S1x256.size a ≤ S1x2048.size a
  inb_S512x2048_S512x256_0_512 : ∀ a, (![0, 512] : Fin 2 → Nat) a + S512x256.size a ≤ S512x2048.size a
  inb_S2048x2048_S256x2048_768_0 : ∀ a, (![768, 0] : Fin 2 → Nat) a + S256x2048.size a ≤ S2048x2048.size a
  inb_S1x2048_S1x256_0_768 : ∀ a, (![0, 768] : Fin 2 → Nat) a + S1x256.size a ≤ S1x2048.size a
  inb_S512x2048_S512x256_0_768 : ∀ a, (![0, 768] : Fin 2 → Nat) a + S512x256.size a ≤ S512x2048.size a
  inb_S2048x2048_S256x2048_1024_0 : ∀ a, (![1024, 0] : Fin 2 → Nat) a + S256x2048.size a ≤ S2048x2048.size a
  inb_S1x2048_S1x256_0_1024 : ∀ a, (![0, 1024] : Fin 2 → Nat) a + S1x256.size a ≤ S1x2048.size a
  inb_S512x2048_S512x256_0_1024 : ∀ a, (![0, 1024] : Fin 2 → Nat) a + S512x256.size a ≤ S512x2048.size a
  inb_S2048x2048_S256x2048_1280_0 : ∀ a, (![1280, 0] : Fin 2 → Nat) a + S256x2048.size a ≤ S2048x2048.size a
  inb_S1x2048_S1x256_0_1280 : ∀ a, (![0, 1280] : Fin 2 → Nat) a + S1x256.size a ≤ S1x2048.size a
  inb_S512x2048_S512x256_0_1280 : ∀ a, (![0, 1280] : Fin 2 → Nat) a + S512x256.size a ≤ S512x2048.size a
  inb_S2048x2048_S256x2048_1536_0 : ∀ a, (![1536, 0] : Fin 2 → Nat) a + S256x2048.size a ≤ S2048x2048.size a
  inb_S1x2048_S1x256_0_1536 : ∀ a, (![0, 1536] : Fin 2 → Nat) a + S1x256.size a ≤ S1x2048.size a
  inb_S512x2048_S512x256_0_1536 : ∀ a, (![0, 1536] : Fin 2 → Nat) a + S512x256.size a ≤ S512x2048.size a
  inb_S2048x2048_S256x2048_1792_0 : ∀ a, (![1792, 0] : Fin 2 → Nat) a + S256x2048.size a ≤ S2048x2048.size a
  inb_S1x2048_S1x256_0_1792 : ∀ a, (![0, 1792] : Fin 2 → Nat) a + S1x256.size a ≤ S1x2048.size a
  inb_S512x2048_S512x256_0_1792 : ∀ a, (![0, 1792] : Fin 2 → Nat) a + S512x256.size a ≤ S512x2048.size a
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S16384x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_call1_v0 : Ref sig .tc := ⟨.hbm, 6, rfl⟩
abbrev main_call1_v1 : Ref sig .tc := ⟨.hbm, 7, rfl⟩
abbrev main_call1_v2 : Ref sig .tc := ⟨.hbm, 8, rfl⟩
abbrev main_call1_v3 : Ref sig .tc := ⟨.hbm, 9, rfl⟩
abbrev main_call1_v4 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_cst_2 : Ref sig .tc := ⟨.hbm, 14, rfl⟩
abbrev main_call3_v0 : Ref sig .tc := ⟨.hbm, 15, rfl⟩
abbrev main_call3_v1 : Ref sig .tc := ⟨.hbm, 16, rfl⟩
abbrev main_call3_v2 : Ref sig .tc := ⟨.hbm, 17, rfl⟩
abbrev main_call3_v3 : Ref sig .tc := ⟨.hbm, 18, rfl⟩
abbrev main_call3_v4 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S_S16384x2048 : S_.BroadcastsInDim S16384x2048 (![] : Fin 0 → Fin S16384x2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S2048x2048_S16384x2048_1_1_0_0_n_n_wf : DotDims.WF S16384x2048 S2048x2048 S16384x2048 [1] [1] [0] [0] [] []

variable [Facts₀]

def dot_S16384x2048_S2048x2048_S16384x2048_1_1_0_0_n_n : DotDims S16384x2048 S2048x2048 S16384x2048 where
  lhsContracting := [1]
  rhsContracting := [1]
  lhsNonContracting := [0]
  rhsNonContracting := [0]
  lhsBatch := []
  rhsBatch := []
  wf := dot_S16384x2048_S2048x2048_S16384x2048_1_1_0_0_n_n_wf

class Facts : Prop extends Facts₀ where

variable [Facts]
-- ==== Proof.LibMatmulRows.lean ====
/-
  A matrix product that contracts the LAST axis of both operands, from the zero accumulator, read at an entry.

  With the left operand [M, K] and the right operand [N, K], both contracted on their second axis, the result
  [M, N] at (p, r) is the sum over k of left (p, k) times right (r, k): row p of the left operand against
  row r of the right one. Stated for any dimension record that lists exactly those axes, at the exact
  instance (extended reals), general in the extents and in the operands' float formats.
-/
import Idealize.ShloMosaic.Lib.ValueIdx
import Idealize.ShloMosaic.PureOps.Ideal.Laws

namespace Cert.MatmulRows

open Idealize.ShloMosaic Idealize.ShloMosaic.ValueIdx

/-- Rows against rows: `matmul` of [M, K] and [N, K] contracting axis 1 of each, accumulator zero, at (p, r). -/
theorem matmul_rows_apply {M N K : ℕ} {φ₁ φ₂ : FTy}
    (d : DotDims ⟨2, ![M, K]⟩ ⟨2, ![N, K]⟩ ⟨2, ![M, N]⟩) (prec : Option ContractPrecision)
    (hlc : d.lhsContracting = [1]) (hrc : d.rhsContracting = [1])
    (hln : d.lhsNonContracting = [0]) (hrn : d.rhsNonContracting = [0])
    (hlb : d.lhsBatch = []) (hrb : d.rhsBatch = [])
    (lhs : FVec Ideal ⟨2, ![M, K]⟩ φ₁) (rhs : FVec Ideal ⟨2, ![N, K]⟩ φ₂) (p : Fin M) (r : Fin N) :
    FloatOps.matmul d prec lhs rhs (constant (F := Ideal) ⟨2, ![M, N]⟩ .f32 0x00000000#32) (ix2 p r)
      = ∑ k : Fin K, lhs (ix2 p k) * rhs (ix2 r k) := by
  obtain ⟨lc, rc, ln, rn, lb, rb, wf⟩ := d
  dsimp only at hlc hrc hln hrn hlb hrb
  subst hlc hrc hln hrn hlb hrb
  generalize hd : (⟨[1], [1], [0], [0], [], [], wf⟩ : DotDims ⟨2, ![M, K]⟩ ⟨2, ![N, K]⟩ ⟨2, ![M, N]⟩) = d
  have hlc : d.lhsContracting = [1] := by rw [← hd]
  have hrc : d.rhsContracting = [1] := by rw [← hd]
  have hr : d.contr.rank = 1 := by rw [← hd]; rfl
  have hs : d.contr.size ⟨0, by omega⟩ = K := by subst hd; rfl
  rw [Ideal.matmul_constant_zero_apply, ← Equiv.sum_comp (contrEquiv1 d K hr hs).symm]
  refine Finset.sum_congr rfl fun k _ => ?_
  have hk := contrEquiv1_symm_val d K hr hs k
  have el : d.lhsIdx (ix2 p r) ((contrEquiv1 d K hr hs).symm k) = ix2 p k := funext fun a => Fin.ext (by
    match a with
    | ⟨0, h0⟩ =>
      subst hd
      unfold DotDims.lhsIdx
      rw [dif_neg List.not_mem_nil,
        dif_pos (show (⟨0, h0⟩ : Fin (⟨2, ![M, K]⟩ : Shape).rank) ∈ [0] from List.mem_singleton.mpr (Fin.ext rfl))]
      rfl
    | ⟨1, _⟩ => exact (d.lhsIdx_val_of_single hlc _ _).trans hk)
  have er : d.rhsIdx (ix2 p r) ((contrEquiv1 d K hr hs).symm k) = ix2 r k := funext fun a => Fin.ext (by
    match a with
    | ⟨0, h0⟩ =>
      subst hd
      unfold DotDims.rhsIdx
      rw [dif_neg List.not_mem_nil,
        dif_pos (show (⟨0, h0⟩ : Fin (⟨2, ![N, K]⟩ : Shape).rank) ∈ [0] from List.mem_singleton.mpr (Fin.ext rfl))]
      rfl
    | ⟨1, _⟩ => exact (d.rhsIdx_val_of_single hrc _ _).trans hk)
  rw [el, er]

end Cert.MatmulRows
-- ==== Proof.LibRectReads.lean ====
/-
  A unit-stride rectangle of a matrix, read at coordinates.

  A rectangle of a matrix [M, N] that takes m consecutive rows from row o and all N columns places its local
  entry (i, j) at entry (o + i, j) of the matrix; one that takes all M rows and n consecutive columns from
  column o places its local entry (i, j) at (i, o + j). These are the two forms a body meets when it loads a
  block of rows of an operand, or loads and stores a block of columns of its output: a load through the
  rectangle (`View.ld X r`, the contents at the rectangle's indices) and the rectangle's embedding
  (`r.emb`) both go through `r.idx`, which is what is read here. General in the extents and the offset.
-/
import Idealize.ShloMosaic.Lib.ValueIdx
import Idealize.ShloMosaic.Lib.Pipeline.FrameBody

namespace Cert.RectReads

open Idealize.ShloMosaic Idealize.ShloMosaic.ValueIdx

/-- A block of m rows from row o, all columns: local (i, j) is the matrix's (o + i, j). -/
theorem idx_rowBlock {M N m : ℕ} (o : ℕ)
    (inb : ∀ a, (![o, 0] : Fin 2 → ℕ) a + (![m, N] : Fin 2 → ℕ) a ≤ (⟨2, ![M, N]⟩ : Shape).size a)
    (i : Fin m) (j : Fin N) (h : o + i.val < M) :
    (Rect.unit (s := ⟨2, ![M, N]⟩) ![o, 0] ![m, N] inb).idx (ix2 i j) = ix2 ⟨o + i.val, h⟩ j := by
  funext a
  apply Fin.ext
  match a with
  | ⟨0, _⟩ => show o + 1 * i.val = o + i.val; rw [Nat.one_mul]
  | ⟨1, _⟩ => show 0 + 1 * j.val = j.val; rw [Nat.one_mul, Nat.zero_add]

/-- A block of n columns from column o, all rows: local (i, j) is the matrix's (i, o + j). -/
theorem idx_colBlock {M N n : ℕ} (o : ℕ)
    (inb : ∀ a, (![0, o] : Fin 2 → ℕ) a + (![M, n] : Fin 2 → ℕ) a ≤ (⟨2, ![M, N]⟩ : Shape).size a)
    (i : Fin M) (j : Fin n) (h : o + j.val < N) :
    (Rect.unit (s := ⟨2, ![M, N]⟩) ![0, o] ![M, n] inb).idx (ix2 i j) = ix2 i ⟨o + j.val, h⟩ := by
  funext a
  apply Fin.ext
  match a with
  | ⟨0, _⟩ => show 0 + 1 * i.val = i.val; rw [Nat.one_mul, Nat.zero_add]
  | ⟨1, _⟩ => show o + 1 * j.val = o + j.val; rw [Nat.one_mul]

/-- A load of m rows from row o of a matrix, at (i, j): the matrix's entry (o + i, j). -/
theorem ld_rowBlock {α : Type} {M N m : ℕ} (X : (⟨2, ![M, N]⟩ : Shape).Idx → α) (o : ℕ)
    (inb : ∀ a, (![o, 0] : Fin 2 → ℕ) a + (![m, N] : Fin 2 → ℕ) a ≤ (⟨2, ![M, N]⟩ : Shape).size a)
    (i : Fin m) (j : Fin N) (h : o + i.val < M) :
    X ((Rect.unit (s := ⟨2, ![M, N]⟩) ![o, 0] ![m, N] inb).idx (ix2 i j)) = X (ix2 ⟨o + i.val, h⟩ j) :=
  congrArg X (idx_rowBlock o inb i j h)

/-- A load of n columns from column o of a matrix, at (i, j): the matrix's entry (i, o + j). -/
theorem ld_colBlock {α : Type} {M N n : ℕ} (X : (⟨2, ![M, N]⟩ : Shape).Idx → α) (o : ℕ)
    (inb : ∀ a, (![0, o] : Fin 2 → ℕ) a + (![M, n] : Fin 2 → ℕ) a ≤ (⟨2, ![M, N]⟩ : Shape).size a)
    (i : Fin M) (j : Fin n) (h : o + j.val < N) :
    X ((Rect.unit (s := ⟨2, ![M, N]⟩) ![0, o] ![M, n] inb).idx (ix2 i j)) = X (ix2 i ⟨o + j.val, h⟩) :=
  congrArg X (idx_colBlock o inb i j h)

end Cert.RectReads
-- ==== Proof.TernarySpec.lean ====
/-
  The ternary linear layer as one function on the extended reals.

  An entry is quantised to {-1, 0, 1} by rounding to the nearest integer (ties to even) and clamping, first from
  below at -1 and then from above at 1; the two bounds are kept as the f32 words of -1 and 1, which both
  programs spell the same way, so they are never evaluated. The layer quantises the input x : [T, D] and
  the weight w : [O, D], takes every row of x against every row of w, and adds the bias:
    out (p, o) = (Σ_k tern (x (p, k)) · tern (w (o, k))) + b o.
  Nothing here needs the entries to be finite: both programs compute this same expression, sum for sum.
-/
import Idealize.ShloMosaic.Lib.ValueIdx
import Idealize.ShloMosaic.PureOps.Ideal

noncomputable section

namespace Cert.TernaryLinear

open Idealize.ShloMosaic Idealize.ShloMosaic.ValueIdx

/-- Ternary quantisation of one extended real: nearest integer, ties to even, then clamped to [-1, 1]. -/
def tern (x : EReal) : EReal :=
  min (Ideal.ofBits .f32 0x3F800000#32) (max (Ideal.ofBits .f32 0xBF800000#32) (Ideal.liftRound Ideal.roundHalfEven x))

/-- One entry of the layer: row p of the quantised input against row o of the quantised weight, plus bias o. -/
def entry {T O D : ℕ} (x : (⟨2, ![T, D]⟩ : Shape).Idx → EReal) (w : (⟨2, ![O, D]⟩ : Shape).Idx → EReal)
    (b : (⟨1, ![O]⟩ : Shape).Idx → EReal) (p : Fin T) (o : Fin O) : EReal :=
  (∑ k : Fin D, tern (x (ix2 p k)) * tern (w (ix2 o k))) + b (ix1 o)

/-- The layer's output array. -/
def layer {T O D : ℕ} (x : (⟨2, ![T, D]⟩ : Shape).Idx → EReal) (w : (⟨2, ![O, D]⟩ : Shape).Idx → EReal)
    (b : (⟨1, ![O]⟩ : Shape).Idx → EReal) : (⟨2, ![T, O]⟩ : Shape).Idx → EReal :=
  fun i => entry x w b (i 0) (i 1)

theorem layer_apply {T O D : ℕ} (x : (⟨2, ![T, D]⟩ : Shape).Idx → EReal) (w : (⟨2, ![O, D]⟩ : Shape).Idx → EReal)
    (b : (⟨1, ![O]⟩ : Shape).Idx → EReal) (p : Fin T) (o : Fin O) :
    layer x w b (ix2 p o) = (∑ k : Fin D, tern (x (ix2 p k)) * tern (w (ix2 o k))) + b (ix1 o) := rfl

/-- A row of the output reads one row of the input: if the rows of a block x₀ : [t, D] are rows r, r + 1, … of x,
    an entry of the layer of the block is the entry of the layer of x in that row. -/
theorem entry_of_rows {T t O D : ℕ} (x : (⟨2, ![T, D]⟩ : Shape).Idx → EReal) (x₀ : (⟨2, ![t, D]⟩ : Shape).Idx → EReal)
    (w : (⟨2, ![O, D]⟩ : Shape).Idx → EReal) (b : (⟨1, ![O]⟩ : Shape).Idx → EReal) (p : Fin t) (P : Fin T) (o : Fin O)
    (h : ∀ k : Fin D, x₀ (ix2 p k) = x (ix2 P k)) :
    entry x₀ w b p o = entry x w b P o := by
  unfold entry
  refine congrArg (· + b (ix1 o)) (Finset.sum_congr rfl fun k _ => ?_)
  rw [h k]

end Cert.TernaryLinear

end
-- ==== Proof.KernelBlock.lean ====
/-
  What the kernel's body leaves in its output block, as one function of its three input blocks.

  The body quantises its block of input rows x₀ : [512, 2048] once, and then, for each of the eight groups of 256
  output columns, quantises rows 256c … 256c + 255 of the weight, takes every row of the quantised input block
  against every one of those rows, adds columns 256c … 256c + 255 of the bias row, and stores the result in
  columns 256c … 256c + 255 of the output block. So entry (p, o) of the output block is
    (Σ_k tern (x₀ (p, k)) · tern (w (o, k))) + b (0, o)
  whatever group o falls in: the eight stored pieces are the eight column blocks of this one function.
-/
import proofs.«146212_j61400852463755_1_alg».proof.Proof.Gen.KernelIdeal.Frame
import proofs.«146212_j61400852463755_1_alg».proof.Proof.LibMatmulRows
import proofs.«146212_j61400852463755_1_alg».proof.Proof.LibRectReads
import proofs.«146212_j61400852463755_1_alg».proof.Proof.TernarySpec
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx Cert.TernaryLinear

/-- The input block, quantised, at an index: `tern` of the block's entry (the change of format is the identity). -/
theorem quant_apply (x0 : Vec Ideal S512x2048 .f32) (j : S512x2048.Idx) : k0_pay2 (F := Ideal) x0 j = tern (x0 j) := rfl

/-- One group of output columns at (p, q): the quantised input's row p against the quantised weight rows' row q,
    plus entry q of the bias piece. -/
theorem chunk_apply (xq : FVec Ideal S512x2048 .bf16) (wc : Vec Ideal S256x2048 .f32) (bc : Vec Ideal S1x256 .f32)
    (p : Fin 512) (q : Fin 256) :
    k0_pay5 (F := Ideal) xq wc bc (ix2 p q)
      = (∑ k : Fin 2048, xq (ix2 p k) * tern (wc (ix2 q k))) + bc (ix2 (0 : Fin 1) q) := by
  unfold k0_pay5
  show (_ : EReal) + _ = _ + _
  refine congrArg₂ (· + ·) ?_ ?_
  · exact Cert.MatmulRows.matmul_rows_apply dot_S512x2048_S256x2048_S512x256_1_1_0_0_n_n none rfl rfl rfl rfl rfl rfl xq _ p q
  · rw [shapeCast_self]
    exact broadcastTo_1b_ab_apply bc broadcasts_S1x256_S512x256 p q

/-- The output block as ONE function of the three input blocks: entry (p, o) is the quantised input block's row p
    against the quantised weight's row o, plus entry o of the bias row. -/
def blockOut (x0 : Vec Ideal S512x2048 .f32) (x1 : Vec Ideal S2048x2048 .f32) (x2 : Vec Ideal S1x2048 .f32) :
    Vec Ideal S512x2048 .f32 :=
  fun y => (∑ k : Fin 2048, tern (x0 (ix2 (y 0) k)) * tern (x1 (ix2 (y 1) k))) + x2 (ix2 (0 : Fin 1) (y 1))

theorem blockOut_apply (x0 : Vec Ideal S512x2048 .f32) (x1 : Vec Ideal S2048x2048 .f32) (x2 : Vec Ideal S1x2048 .f32)
    (p : Fin 512) (o : Fin 2048) :
    blockOut x0 x1 x2 (ix2 p o)
      = (∑ k : Fin 2048, tern (x0 (ix2 p k)) * tern (x1 (ix2 o k))) + x2 (ix2 (0 : Fin 1) o) := rfl

theorem zero_offsets : (![0, 0] : Fin 2 → Nat) = fun _ => 0 := funext fun a => by fin_cases a <;> rfl

/-- The group of 256 output columns that starts at column o: computed from the whole input block, rows o … o + 255
    of the weight and columns o … o + 255 of the bias row, it is columns o … o + 255 of `blockOut`. -/
theorem piece_apply (x0 : Vec Ideal S512x2048 .f32) (x1 : Vec Ideal S2048x2048 .f32) (x2 : Vec Ideal S1x2048 .f32)
    (o : ℕ) (ho : o + 256 ≤ 2048)
    (inbW : ∀ a, (![o, 0] : Fin 2 → ℕ) a + S256x2048.size a ≤ S2048x2048.size a)
    (inbB : ∀ a, (![0, o] : Fin 2 → ℕ) a + S1x256.size a ≤ S1x2048.size a)
    (inbO : ∀ a, (![0, o] : Fin 2 → ℕ) a + S512x256.size a ≤ S512x2048.size a)
    (x : S512x256.Idx) :
    k0_pay5 (F := Ideal) (k0_pay2 (View.ld x0 r0_0)) (View.ld x1 (Rect.unit (s := S2048x2048) ![o, 0] S256x2048.size inbW))
        (View.ld x2 (Rect.unit (s := S1x2048) ![0, o] S1x256.size inbB)) x
      = blockOut x0 x1 x2 ((Rect.unit (s := S512x2048) ![0, o] S512x256.size inbO).emb x) := by
  obtain ⟨p, q, rfl⟩ : ∃ (p : Fin 512) (q : Fin 256), x = ix2 p q := ⟨x 0, x 1, eq_ix2 x⟩
  have hq : o + q.val < 2048 := by have := q.isLt; omega
  refine (chunk_apply _ _ _ p q).trans ?_
  have eO : (Rect.unit (s := S512x2048) ![0, o] S512x256.size inbO).emb (ix2 p q) = ix2 p ⟨o + q.val, hq⟩ :=
    Cert.RectReads.idx_colBlock o inbO p q hq
  rw [eO, blockOut_apply]
  refine congrArg₂ (· + ·) (Finset.sum_congr rfl fun k _ => congrArg₂ (· * ·) ?_ ?_) ?_
  · rw [quant_apply, View.ld_unit_zero zero_offsets]
  · exact congrArg tern (Cert.RectReads.ld_rowBlock x1 o inbW q k hq)
  · exact Cert.RectReads.ld_colBlock x2 o inbB (0 : Fin 1) q hq

/-- What the body leaves in the output block: its eight stores are the eight column groups of `blockOut`, and
    together they cover the block. -/
theorem out_eq (x0 : Vec Ideal S512x2048 .f32) (x1 : Vec Ideal S2048x2048 .f32) (x2 : Vec Ideal S1x2048 .f32) :
    out0_3 (F := Ideal) x0 x1 x2 = blockOut x0 x1 x2 := by
  funext y
  unfold out0_3
  refine View.canon_apply_of_pieces (blockOut x0 x1 x2) _ ?_ y (cover0_3 _ _ _ _ _ _ _ _ y)
  intro p hp
  simp only [List.mem_cons, List.not_mem_nil, or_false] at hp
  rcases hp with rfl | rfl | rfl | rfl | rfl | rfl | rfl | rfl
  · exact piece_apply x0 x1 x2 1792 (by decide) inb_S2048x2048_S256x2048_1792_0 inb_S1x2048_S1x256_0_1792 inb_S512x2048_S512x256_0_1792
  · exact piece_apply x0 x1 x2 1536 (by decide) inb_S2048x2048_S256x2048_1536_0 inb_S1x2048_S1x256_0_1536 inb_S512x2048_S512x256_0_1536
  · exact piece_apply x0 x1 x2 1280 (by decide) inb_S2048x2048_S256x2048_1280_0 inb_S1x2048_S1x256_0_1280 inb_S512x2048_S512x256_0_1280
  · exact piece_apply x0 x1 x2 1024 (by decide) inb_S2048x2048_S256x2048_1024_0 inb_S1x2048_S1x256_0_1024 inb_S512x2048_S512x256_0_1024
  · exact piece_apply x0 x1 x2 768 (by decide) inb_S2048x2048_S256x2048_768_0 inb_S1x2048_S1x256_0_768 inb_S512x2048_S512x256_0_768
  · exact piece_apply x0 x1 x2 512 (by decide) inb_S2048x2048_S256x2048_512_0 inb_S1x2048_S1x256_0_512 inb_S512x2048_S512x256_0_512
  · exact piece_apply x0 x1 x2 256 (by decide) inb_S2048x2048_S256x2048_256_0 inb_S1x2048_S1x256_0_256 inb_S512x2048_S512x256_0_256
  · exact piece_apply x0 x1 x2 0 (by decide) inb_S2048x2048_S256x2048_0_0 inb_S1x2048_S1x256_0_0 inb_S512x2048_S512x256_0_0

/-- The output block of rows r … r + 511 is those rows of the layer: when row p of the input block is row r + p of the
    input x, the weight block is the weight w and the bias row holds the bias b, entry (p, o) of `blockOut` is entry
    (r + p, o) of `layer x w b`. -/
theorem blockOut_rows (x : (⟨2, ![16384, 2048]⟩ : Shape).Idx → EReal) (w : (⟨2, ![2048, 2048]⟩ : Shape).Idx → EReal)
    (b : (⟨1, ![2048]⟩ : Shape).Idx → EReal)
    (x0 : Vec Ideal S512x2048 .f32) (x1 : Vec Ideal S2048x2048 .f32) (x2 : Vec Ideal S1x2048 .f32)
    (r : ℕ) (p : Fin 512) (o : Fin 2048) (h : r + p.val < 16384)
    (h0 : ∀ k : Fin 2048, x0 (ix2 p k) = x (ix2 ⟨r + p.val, h⟩ k))
    (h1 : ∀ k : Fin 2048, x1 (ix2 o k) = w (ix2 o k))
    (h2 : x2 (ix2 (0 : Fin 1) o) = b (ix1 o)) :
    blockOut x0 x1 x2 (ix2 p o) = layer x w b (ix2 ⟨r + p.val, h⟩ o) := by
  rw [blockOut_apply, layer_apply]
  refine congrArg₂ (· + ·) (Finset.sum_congr rfl fun k _ => ?_) h2
  rw [h0 k, h1 k]

end Cert.KernelIdeal.Block

end
-- ==== Proof.KernelArray.lean ====
/-
  The kernel's result array is the ternary linear layer of its three arguments.

  The grid has 32 points; point t stages rows 512 t … 512 t + 511 of the input, the whole weight and the whole bias
  row (the bias reshaped to one row before the call), and writes back rows 512 t … 512 t + 511 of the result. What
  it writes back is `blockOut` of those blocks, which is those rows of `layer x w b` — a row of the layer reads only
  that row of the input. The 32 blocks of rows cover the result array, so the array ends holding the layer.
-/
import proofs.«146212_j61400852463755_1_alg».proof.Proof.Gen.KernelIdeal.Value
import proofs.«146212_j61400852463755_1_alg».proof.Proof.KernelBlock
import Idealize.ShloMosaic.Lib.ValueLayout
import Idealize.ShloMosaic.Lib.StableHlo.Run

noncomputable section

namespace Cert.KernelIdeal.Whole

open Cert.KernelIdeal Cert.KernelIdeal.Gen Cert.KernelIdeal.Block Cert.TernaryLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The block index of each window at each grid point: the input and the result move one block of rows per point,
    the weight and the bias row stay at their one block. Decided over the 32 points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The layer of the three argument arrays as launched. -/
abbrev result (c : Dev nD) : S16384x2048.Idx → EReal :=
  layer (T := 16384) (O := 2048) (D := 2048) (m ((c : Thread nD τ).loc main_arg0)) (m ((c : Thread nD τ).loc main_arg1))
    (m ((c : Thread nD τ).loc main_arg2))

/-- Row p of the input block at point t is row 512 t + p of the input. -/
theorem inputBlock_apply (c : Dev nD) (t : Fin cfg0.N) (p : Fin 512) (k : Fin 2048) (h : 512 * t.val + p.val < 16384) :
    (iblk m c 0 t : Vec Ideal S512x2048 .f32) (ix2 p k)
      = (m ((c : Thread nD τ).loc main_arg0) : S16384x2048.Idx → EReal) (ix2 ⟨512 * t.val + p.val, h⟩ k) := by
  obtain ⟨e0, e1, -⟩ := block_indices t
  show V m c main_arg0 (((cfg0.win 0).blk t).view.emb (ix2 p k)) = _
  rw [V_main_arg0]
  refine congrArg _ ?_
  funext a
  apply Fin.ext
  match a with
  | ⟨0, _⟩ => show win0_0.index t (0 : Fin 2) * 512 + 1 * p.val = 512 * t.val + p.val; rw [e0]; omega
  | ⟨1, _⟩ => show win0_0.index t (1 : Fin 2) * 2048 + 1 * k.val = k.val; rw [e1]; omega

/-- The weight block at every point is the whole weight. -/
theorem weightBlock_apply (c : Dev nD) (t : Fin cfg0.N) (o : Fin 2048) (k : Fin 2048) :
    (iblk m c 1 t : Vec Ideal S2048x2048 .f32) (ix2 o k)
      = (m ((c : Thread nD τ).loc main_arg1) : S2048x2048.Idx → EReal) (ix2 o k) := by
  obtain ⟨-, -, e0, e1, -⟩ := block_indices t
  show V m c main_arg1 (((cfg0.win 1).blk t).view.emb (ix2 o k)) = _
  rw [V_main_arg1]
  refine congrArg _ ?_
  funext a
  apply Fin.ext
  match a with
  | ⟨0, _⟩ => show win0_1.index t (0 : Fin 2) * 2048 + 1 * o.val = o.val; rw [e0]; omega
  | ⟨1, _⟩ => show win0_1.index t (1 : Fin 2) * 2048 + 1 * k.val = k.val; rw [e1]; omega

/-- The bias row the region finds: the bias vector reshaped to one row. -/
theorem biasRow_eq (c : Dev nD) :
    (V m c main_v0 : S1x2048.Idx → EReal)
      = shapeCast S1x2048 (m ((c : Thread nD τ).loc main_arg2) : S2048.Idx → EReal) shapeCasts_S2048_S1x2048 := by
  dsimp only [Gen.V, Gen.hostOps0]
  after_results
  rfl

/-- The bias block at every point is the whole bias row; its entry o is entry o of the bias. -/
theorem biasBlock_apply (c : Dev nD) (t : Fin cfg0.N) (o : Fin 2048) :
    (iblk m c 2 t : Vec Ideal S1x2048 .f32) (ix2 (0 : Fin 1) o)
      = (m ((c : Thread nD τ).loc main_arg2) : S2048.Idx → EReal) (ix1 o) := by
  obtain ⟨-, -, -, -, e0, e1, -⟩ := block_indices t
  show V m c main_v0 (((cfg0.win 2).blk t).view.emb (ix2 (0 : Fin 1) o)) = _
  rw [biasRow_eq]
  refine (congrArg _ (?_ : _ = ix2 (0 : Fin 1) o)).trans (shapeCast_a_1a_apply _ shapeCasts_S2048_S1x2048 (0 : Fin 1) o)
  funext a
  apply Fin.ext
  match a with
  | ⟨0, _⟩ => show win0_2.index t (0 : Fin 2) * 1 + 1 * 0 = 0; rw [e0]
  | ⟨1, _⟩ => show win0_2.index t (1 : Fin 2) * 2048 + 1 * o.val = o.val; rw [e1]; omega

/-- What point t writes back is block t — rows 512 t … 512 t + 511 — of the layer of the arguments. -/
theorem flushed_eq (c : Dev nD) (t : Fin cfg0.N) :
    (dats m 0 c).flushed 3 t = ((cfg0.win 3).blk t).view.read (Elt Ideal) (result m c) := by
  rw [Cert.KernelIdeal.Value.flushed3, out_eq]
  have ht : t.val < 32 := lt_of_lt_of_eq (show t.val < grid0.N from t.isLt) N_0
  obtain ⟨-, -, -, -, -, -, e0, e1⟩ := block_indices t
  funext j
  obtain ⟨p, o, rfl⟩ : ∃ (p : Fin 512) (o : Fin 2048), j = ix2 p o := ⟨j 0, j 1, eq_ix2 j⟩
  have h : 512 * t.val + p.val < 16384 := by have := p.isLt; omega
  show blockOut (iblk m c 0 t) (iblk m c 1 t) (iblk m c 2 t) (ix2 p o) = result m c (((cfg0.win 3).blk t).view.emb (ix2 p o))
  have hemb : ((cfg0.win 3).blk t).view.emb (ix2 p o) = ix2 ⟨512 * t.val + p.val, h⟩ o := by
    funext a
    apply Fin.ext
    match a with
    | ⟨0, _⟩ => show win0_3.index t (0 : Fin 2) * 512 + 1 * p.val = 512 * t.val + p.val; rw [e0]; omega
    | ⟨1, _⟩ => show win0_3.index t (1 : Fin 2) * 2048 + 1 * o.val = o.val; rw [e1]; omega
  rw [hemb]
  exact blockOut_rows _ _ _ (iblk m c 0 t) (iblk m c 1 t) (iblk m c 2 t) (512 * t.val) p o h
    (fun k => inputBlock_apply m c t p k h) (fun k => weightBlock_apply m c t o k) (biasBlock_apply m c t o)

/-- An index of the result array is in point t's block iff each coordinate is in the block's range on its axis. -/
theorem mem_block (t : Fin cfg0.N) (i : S16384x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v1).slice (win0_3.rect t)).set ↔ _
  rw [View.set_slice_whole, Rect.mem_set_unit]
  exact Iff.rfl

/-- Every row of the result array is in some point's block: row r in the block of point r / 512. -/
theorem covered (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  have hN : cfg0.N = 32 := N_0
  refine ⟨⟨(i 0).val / 512, by rw [hN]; omega⟩, flush0_3 _, ?_⟩
  obtain ⟨-, -, -, -, -, -, e0, e1⟩ := block_indices ⟨(i 0).val / 512, by rw [hN]; omega⟩
  rw [mem_block]
  intro a
  match a with
  | ⟨0, _⟩ =>
    show win0_3.index _ (0 : Fin 2) * 512 ≤ (i 0).val ∧ (i 0).val < win0_3.index _ (0 : Fin 2) * 512 + 512
    rw [e0]
    show (i 0).val / 512 * 512 ≤ (i 0).val ∧ (i 0).val < (i 0).val / 512 * 512 + 512
    omega
  | ⟨1, _⟩ =>
    show win0_3.index _ (1 : Fin 2) * 2048 ≤ (i 1).val ∧ (i 1).val < win0_3.index _ (1 : Fin 2) * 2048 + 2048
    rw [e1]
    omega

/-- The result array after the run is the layer of the arguments. -/
theorem final (c : Dev nD) : (dats m 0 c).arrAt 3 cfg0.N = result m c :=
  (dats m 0 c).arrAt_eq_of_cover 3 (result m c) (fun t _ => flushed_eq m c t) covered

/-- The kernel's run, read: the result array ends at the layer of the arguments, and the arguments are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.ReferenceLayer.lean ====
/-
  The reference computes the ternary linear layer.

  The reference quantises the whole weight and the whole input (round to nearest even, then a clamp whose bounds
  are scalar constants broadcast to the operand's shape), contracts the last axis of the quantised input against the
  last axis of the quantised weight, and adds the bias broadcast along the rows. Entry (p, o) of its result is
  therefore (Σ_k tern (x (p, k)) · tern (w (o, k))) + b o: the function `layer`.
-/
import proofs.«146212_j61400852463755_1_alg».proof.Proof.Gen.ReferenceIdeal.Read
import proofs.«146212_j61400852463755_1_alg».proof.Proof.TernarySpec

noncomputable section

namespace Cert.ReferenceIdeal.RefValue

open Cert.ReferenceIdeal Cert.ReferenceIdeal.Read Idealize.ShloMosaic Idealize.ShloMosaic.ValueIdx Cert.TernaryLinear

/-- The quantised weight at an index. -/
theorem quantW_apply (x1 : (⟨S2048x2048, .f32⟩ : BufTy).Contents (Elt Ideal)) (i : S2048x2048.Idx) :
    val_main_v1 (F := Ideal) x1 i = tern (x1 i) := by
  rw [val_main_v1_apply, val_main_call1_v4_apply, val_main_call1_v3_apply, val_main_cst_0_apply,
    val_main_call1_v2_apply, val_main_call1_v1_apply, val_main_call1_v0_apply, val_main_cst_apply, val_main_v0_apply]
  rfl

/-- The quantised input at an index. -/
theorem quantX_apply (x0 : (⟨S16384x2048, .f32⟩ : BufTy).Contents (Elt Ideal)) (i : S16384x2048.Idx) :
    val_main_v3 (F := Ideal) x0 i = tern (x0 i) := by
  rw [val_main_v3_apply, val_main_call3_v4_apply, val_main_call3_v3_apply, val_main_cst_2_apply,
    val_main_call3_v2_apply, val_main_call3_v1_apply, val_main_call3_v0_apply, val_main_cst_1_apply, val_main_v2_apply]
  rfl

/-- The reference's result is the layer of its three arguments. -/
theorem result_eq (x0 : (⟨S16384x2048, .f32⟩ : BufTy).Contents (Elt Ideal)) (x1 : (⟨S2048x2048, .f32⟩ : BufTy).Contents (Elt Ideal))
    (x2 : (⟨S2048, .f32⟩ : BufTy).Contents (Elt Ideal)) :
    val_main_v7 (F := Ideal) x0 x1 x2 = layer (T := 16384) (O := 2048) (D := 2048) x0 x1 x2 := by
  funext i
  obtain ⟨p, o, rfl⟩ : ∃ (p : Fin 16384) (o : Fin 2048), i = ix2 p o := ⟨i 0, i 1, eq_ix2 i⟩
  rw [val_main_v7_apply, val_main_v4_apply, val_main_v6_apply, val_main_v5_apply, layer_apply]
  show (_ : EReal) + _ = _ + _
  refine congrArg₂ (· + ·) (Finset.sum_congr rfl fun k _ => ?_) ?_
  · have el : lidx_main_v4 (ix2 p o) k = ix2 p k := funext fun a => Fin.ext (by
      match a with
      | ⟨0, _⟩ => rfl
      | ⟨1, _⟩ => rfl)
    have er : ridx_main_v4 (ix2 p o) k = ix2 o k := funext fun a => Fin.ext (by
      match a with
      | ⟨0, _⟩ => rfl
      | ⟨1, _⟩ => rfl)
    rw [quantX_apply, quantW_apply, el, er]
  · exact congrArg x2 (funext fun a => Fin.ext (by
      match a with
      | ⟨0, _⟩ => rfl))

end Cert.ReferenceIdeal.RefValue

end
-- ==== Proof.lean ====
/-
  A ternary linear layer: the kernel against its reference, on the extended reals.

  Both programs quantise the input x : [16384, 2048] and the weight w : [2048, 2048] entry by entry to {-1, 0, 1}
  (round to the nearest integer, ties to even, then clamp at -1 from below and at 1 from above), take every row of
  the quantised input against every row of the quantised weight, and add the bias b : [2048]:
    out (p, o) = (Σ_k tern (x (p, k)) · tern (w (o, k))) + b o          (Proof/TernarySpec.lean, `layer`).
  The reference does so with one contraction over the whole arrays (Proof/ReferenceLayer.lean). The kernel walks the
  rows of x in 32 blocks of 512 and, inside a block, the rows of w in 8 groups of 256, each group filling 256 columns
  of the block's output (Proof/KernelBlock.lean: the eight stored pieces are the column groups of one function of
  the block); the 32 blocks of rows cover the result (Proof/KernelArray.lean). The narrowing of the quantised values
  to bf16 before the product is the identity on the extended reals, the kernel's matrix product from a zero
  accumulator and the reference's contraction are the same sum over k, and the bias reshaped to a row is read at
  the same entry, so the two results agree term by term; no entry needs to be finite for that.
  The idealisation rewrote nothing in the kernel, so there is nothing to preserve; the three frames are the
  generated frame runs (the reference's is its generated run with the result forgotten).
-/
import proofs.«146212_j61400852463755_1_alg».proof.Defs
import proofs.«146212_j61400852463755_1_alg».proof.Proof.Gen.Kernel
import proofs.«146212_j61400852463755_1_alg».proof.Proof.Gen.Kernel.Skeleton
import proofs.«146212_j61400852463755_1_alg».proof.Proof.Gen.Kernel.Launch
import proofs.«146212_j61400852463755_1_alg».proof.Proof.Gen.Kernel.Points
import proofs.«146212_j61400852463755_1_alg».proof.Proof.Gen.Kernel.Frame
import proofs.«146212_j61400852463755_1_alg».proof.Proof.Gen.KernelIdeal
import proofs.«146212_j61400852463755_1_alg».proof.Proof.Gen.KernelIdeal.Skeleton
import proofs.«146212_j61400852463755_1_alg».proof.Proof.Gen.KernelIdeal.Launch
import proofs.«146212_j61400852463755_1_alg».proof.Proof.Gen.KernelIdeal.Points
import proofs.«146212_j61400852463755_1_alg».proof.Proof.Gen.KernelIdeal.Frame
import proofs.«146212_j61400852463755_1_alg».proof.Proof.Gen.ReferenceIdeal
import proofs.«146212_j61400852463755_1_alg».proof.Proof.Gen.Pre_finite_inputs
import proofs.«146212_j61400852463755_1_alg».proof.Proof.Gen.KernelIdeal.Value
import proofs.«146212_j61400852463755_1_alg».proof.Proof.Gen.ReferenceIdeal.Run
import proofs.«146212_j61400852463755_1_alg».proof.Proof.Gen.ReferenceIdeal.Read
import proofs.«146212_j61400852463755_1_alg».proof.Proof.KernelArray
import proofs.«146212_j61400852463755_1_alg».proof.Proof.ReferenceLayer
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x, w and b, the kernel's result array and the reference's both end holding
    `layer x w b`. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
